-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x4096x64 .f32) (main_arg1 : FVec F S8x4096x4096 .f32) (main_arg2 : FVec F S64x64 .f32) (main_arg3 : FVec F S64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S1x64 : Shape := ⟨2, ![1, 64]⟩
abbrev S1x4096x64 : Shape := ⟨3, ![1, 4096, 64]⟩
abbrev S1x512x4096 : Shape := ⟨3, ![1, 512, 4096]⟩
abbrev S1x512x64 : Shape := ⟨3, ![1, 512, 64]⟩
abbrev S4096x64 : Shape := ⟨2, ![4096, 64]⟩
abbrev S512x4096 : Shape := ⟨2, ![512, 4096]⟩
abbrev S512x64 : Shape := ⟨2, ![512, 64]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S64x64, .f32⟩
  | .local _ .vmem, ⟨3, _⟩ => ⟨S1x512x4096, .f32⟩
  | .local _ .vmem, ⟨4, _⟩ => ⟨S1x512x4096, .f32⟩
  | .local _ .vmem, ⟨5, _⟩ => ⟨S1x64, .f32⟩
  | .local _ .vmem, ⟨6, _⟩ => ⟨S1x512x64, .f32⟩
  | .local _ .vmem, ⟨7, _⟩ => ⟨S1x512x64, .f32⟩
  | .local _ .vmem, ⟨8, _⟩ => ⟨S4096x64, .bf16⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64_S1x64 : S64.ShapeCasts S1x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S4096x64_S64x64_S4096x64_1_0_0_1_n_n_wf : DotDims.WF S4096x64 S64x64 S4096x64 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x4096x64.size a
  hwx0_0 : ∀ i : grid0.Coords, EltTy.bits .f32 = 32 ∨ (Rect.block (s := S8x4096x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S8x4096x4096.size a
  hwx0_2 : ∀ i : grid0.Coords, EltTy.bits .f32 = 32 ∨ (Rect.block (s := S8x4096x4096) S1x512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x4096x64.size a
  hwx0_4 : ∀ i : grid0.Coords, EltTy.bits .f32 = 32 ∨ (Rect.block (s := S8x4096x64) S1x512x64.size (cc0_transform_4 i) (hinb0_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S1x1x64 : Shape := ⟨3, ![1, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S64x64, .f32⟩
  | .hbm, ⟨3, _⟩ => ⟨S64, .f32⟩
  | .hbm, ⟨4, _⟩ => ⟨S8x4096x64, .f32⟩
  | .hbm, ⟨5, _⟩ => ⟨S8x4096x64, .f32⟩
  | .hbm, ⟨6, _⟩ => ⟨S1x1x64, .f32⟩
  | .hbm, ⟨7, _⟩ => ⟨S8x4096x64, .f32⟩
  | .hbm, ⟨8, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  dot_S8x4096x64_S64x64_S8x4096x64_2_0_01_1_n_n_wf : DotDims.WF S8x4096x64 S64x64 S8x4096x64 [2] [0] [0, 1] [1] [] []
  dot_S8x4096x4096_S8x4096x64_S8x4096x64_2_1_1_2_0_0_wf : DotDims.WF S8x4096x4096 S8x4096x64 S8x4096x64 [2] [1] [1] [2] [0] [0]

variable [Facts₀]

def dot_S8x4096x64_S64x64_S8x4096x64_2_0_01_1_n_n : DotDims S8x4096x64 S64x64 S8x4096x64 where
  lhsContracting := [2]
  rhsContracting := [0]
  lhsNonContracting := [0, 1]
  rhsNonContracting := [1]
  lhsBatch := []
  rhsBatch := []
  wf := dot_S8x4096x64_S64x64_S8x4096x64_2_0_01_1_n_n_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Spec.lean ====
/-
  The graph-convolution layer as ONE function of its four argument arrays, over the extended reals.

  For a batch of 8 graphs with 4096 nodes and 64 features:
    hidden[b, j, o] = Σ_f text[b, j, f] · weight[f, o]            (each node's features through the weight matrix)
    layer [b, i, o] = Σ_j adj[b, i, j] · hidden[b, j, o] + bias[o] (each node gathers its neighbours' hidden features)
  Both programs compute exactly this double sum, term for term and in this nesting, so no law of the extended reals
  beyond `0 + x = x` is needed to join them, and the finiteness of the inputs is never used.
-/
import Idealize.ShloMosaic.PureOps.Ideal
import Idealize.ShloMosaic.Lib.ValueIdx

noncomputable section

namespace Cert.GraphConv

open Idealize.ShloMosaic Idealize.ShloMosaic.ValueIdx
open scoped BigOperators

/-- The hidden feature `o` of node `j` of graph `b`: row `j` of `text[b]` against column `o` of the weight matrix. -/
def hiddenAt (text : FVec Ideal ⟨3, ![8, 4096, 64]⟩ .f32) (weight : FVec Ideal ⟨2, ![64, 64]⟩ .f32)
    (b : Fin 8) (j : Fin 4096) (o : Fin 64) : EReal :=
  ∑ f : Fin 64, text (ix3 b j f) * weight (ix2 f o)

/-- The layer's output at graph `b`, node `i`, feature `o`: the adjacency row `i` of graph `b` against the hidden
    features' column `o`, plus the bias at `o`. -/
def layerAt (text : FVec Ideal ⟨3, ![8, 4096, 64]⟩ .f32) (adj : FVec Ideal ⟨3, ![8, 4096, 4096]⟩ .f32)
    (weight : FVec Ideal ⟨2, ![64, 64]⟩ .f32) (bias : FVec Ideal ⟨1, ![64]⟩ .f32)
    (b : Fin 8) (i : Fin 4096) (o : Fin 64) : EReal :=
  (∑ j : Fin 4096, adj (ix3 b i j) * hiddenAt text weight b j o) + bias (ix1 o)

/-- The layer's output array. -/
def layer (text : FVec Ideal ⟨3, ![8, 4096, 64]⟩ .f32) (adj : FVec Ideal ⟨3, ![8, 4096, 4096]⟩ .f32)
    (weight : FVec Ideal ⟨2, ![64, 64]⟩ .f32) (bias : FVec Ideal ⟨1, ![64]⟩ .f32) :
    FVec Ideal ⟨3, ![8, 4096, 64]⟩ .f32 :=
  fun i => layerAt text adj weight bias (i 0) (i 1) (i 2)

/-- The layer at an index given by its coordinates. -/
theorem layer_ix3 (text : FVec Ideal ⟨3, ![8, 4096, 64]⟩ .f32) (adj : FVec Ideal ⟨3, ![8, 4096, 4096]⟩ .f32)
    (weight : FVec Ideal ⟨2, ![64, 64]⟩ .f32) (bias : FVec Ideal ⟨1, ![64]⟩ .f32) (b : Fin 8) (i : Fin 4096) (o : Fin 64) :
    layer text adj weight bias (ix3 b i o) = layerAt text adj weight bias b i o := rfl

end Cert.GraphConv

end
-- ==== Proof.RefIsSpec.lean ====
/-
  The reference computes the layer: its two einsums are the two nested sums of the specification, index by index,
  and its broadcast bias is the bias at the feature coordinate.
-/
import proofs.«148132_j14156212208279_2_alg».proof.Proof.Gen.ReferenceIdeal.Read
import proofs.«148132_j14156212208279_2_alg».proof.Proof.Spec

noncomputable section

namespace Cert.ReferenceIdeal.RefValue

open Cert.ReferenceIdeal Cert.ReferenceIdeal.Read Idealize.ShloMosaic Idealize.ShloMosaic.ValueIdx Cert.GraphConv
open scoped BigOperators

/-- The first einsum's left operand index: row `(b, j)` of `text` at feature `f`. -/
theorem lidx0 (b : Fin 8) (j : Fin 4096) (o f : Fin 64) : lidx_main_v0 (ix3 b j o) f = ix3 b j f :=
  funext fun a => by match a with | ⟨0, _⟩ => rfl | ⟨1, _⟩ => rfl | ⟨2, _⟩ => rfl
/-- Its right operand index: the weight at `(f, o)`. -/
theorem ridx0 (b : Fin 8) (j : Fin 4096) (o f : Fin 64) : ridx_main_v0 (ix3 b j o) f = ix2 f o :=
  funext fun a => by match a with | ⟨0, _⟩ => rfl | ⟨1, _⟩ => rfl
/-- The second einsum's left operand index: the adjacency at `(b, i, j)`. -/
theorem lidx1 (b : Fin 8) (i : Fin 4096) (o : Fin 64) (j : Fin 4096) : lidx_main_v1 (ix3 b i o) j = ix3 b i j :=
  funext fun a => by match a with | ⟨0, _⟩ => rfl | ⟨1, _⟩ => rfl | ⟨2, _⟩ => rfl
/-- Its right operand index: the hidden features at `(b, j, o)`. -/
theorem ridx1 (b : Fin 8) (i : Fin 4096) (o : Fin 64) (j : Fin 4096) : ridx_main_v1 (ix3 b i o) j = ix3 b j o :=
  funext fun a => by match a with | ⟨0, _⟩ => rfl | ⟨1, _⟩ => rfl | ⟨2, _⟩ => rfl
/-- The bias through its two broadcasts is read at the feature coordinate. -/
theorem bidx (b : Fin 8) (i : Fin 4096) (o : Fin 64) : idx_main_v2 (idx_main_v3 (ix3 b i o)) = ix1 o :=
  funext fun a => by match a with | ⟨0, _⟩ => rfl

/-- The reference's result term is the layer of its arguments. -/
theorem ref_eq_layer (x0 : FVec Ideal S8x4096x64 .f32) (x1 : FVec Ideal S8x4096x4096 .f32)
    (x2 : FVec Ideal S64x64 .f32) (x3 : FVec Ideal S64 .f32) :
    val_main_v4 (F := Ideal) x0 x1 x2 x3 = layer x0 x1 x2 x3 := by
  funext i
  obtain ⟨b, r, o, rfl⟩ : ∃ (b : Fin 8) (r : Fin 4096) (o : Fin 64), i = ix3 b r o := ⟨i 0, i 1, i 2, eq_ix3 i⟩
  rw [val_main_v4_apply, val_main_v1_apply, val_main_v3_apply, val_main_v2_apply, bidx, layer_ix3]
  refine congrArg (· + x3 (ix1 o)) (Finset.sum_congr rfl fun j _ => ?_)
  rw [lidx1, ridx1, val_main_v0_apply]
  refine congrArg (x1 (ix3 b r j) * ·) (Finset.sum_congr rfl fun f _ => ?_)
  rw [lidx0, ridx0]

end Cert.ReferenceIdeal.RefValue

end
-- ==== Proof.KernelPieces.lean ====
/-
  What one run of the kernel body leaves behind, as values of the blocks it loaded.

  The body has two cases. At the first row tile of a graph (case A) it multiplies the graph's feature block by the
  weight matrix, stores the product in the carried scratch, reads it straight back and uses it; at every other row
  tile (case B) it uses the scratch as the previous point left it. In both cases the output block is the adjacency
  tile against the scratch, plus the bias row. Each statement holds for any float instance.
-/
import proofs.«148132_j14156212208279_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves in the scratch the product of the feature block and the weight matrix: its one store covers the
    scratch, and the two loads feeding it read whole buffers. -/
theorem scratch_A (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S1x512x4096 .f32) (harg4 : arg4.IsWhole) (arg5 : Memref sig .tc .vmem S1x64 .f32) (harg5 : arg5.IsWhole) (arg6 : Memref sig .tc .vmem S1x512x64 .f32) (harg6 : arg6.IsWhole) (arg7 : Memref sig .tc .vmem S4096x64 .bf16) (harg7 : arg7.IsWhole) (hc0 : cond0_0 i) (x0 : Vec F S1x4096x64 .f32) (x1 : Vec F S64x64 .f32) (x2 : Vec F S1x512x4096 .f32) (x3 : Vec F S1x64 .f32) :
    sout0_A_0 c i arg2 harg2 arg3 harg3 arg4 harg4 arg5 harg5 arg6 harg6 arg7 harg7 hc0 x0 x1 x2 x3 = k0_pay1 x0 x1 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, View.ld_unit_zero (S := S1x4096x64) hz3,
    View.ld_unit_zero (S := S64x64) hz2]

/-- Case A's output block: the scratch it reads is the product it has just stored. -/
theorem out_A (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S1x512x4096 .f32) (harg4 : arg4.IsWhole) (arg5 : Memref sig .tc .vmem S1x64 .f32) (harg5 : arg5.IsWhole) (arg6 : Memref sig .tc .vmem S1x512x64 .f32) (harg6 : arg6.IsWhole) (arg7 : Memref sig .tc .vmem S4096x64 .bf16) (harg7 : arg7.IsWhole) (hc0 : cond0_0 i) (x0 : Vec F S1x4096x64 .f32) (x1 : Vec F S64x64 .f32) (x2 : Vec F S1x512x4096 .f32) (x3 : Vec F S1x64 .f32) :
    out0_A_4 c i arg2 harg2 arg3 harg3 arg4 harg4 arg5 harg5 arg6 harg6 arg7 harg7 hc0 x0 x1 x2 x3 = k0_pay2 x2 (k0_pay1 x0 x1) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3, View.readCov_unit_zero (S := S4096x64) _ hz2]
  simp only [View.readAt_eq_ld, harg2.read_unread, harg3.read_unread, harg4.read_unread, harg5.read_unread,
    View.ld_unit_zero (S := S1x4096x64) hz3, View.ld_unit_zero (S := S64x64) hz2,
    View.ld_unit_zero (S := S1x512x4096) hz3, View.ld_unit_zero (S := S1x64) hz2]

/-- Case B's output block: the scratch it reads is what the point before left (`xs0`). -/
theorem out_B (c : Dev nD) (i : grid0.Coords) (arg2 : Memref sig .tc .vmem S1x4096x64 .f32) (harg2 : arg2.IsWhole) (arg3 : Memref sig .tc .vmem S64x64 .f32) (harg3 : arg3.IsWhole) (arg4 : Memref sig .tc .vmem S1x512x4096 .f32) (harg4 : arg4.IsWhole) (arg5 : Memref sig .tc .vmem S1x64 .f32) (harg5 : arg5.IsWhole) (arg6 : Memref sig .tc .vmem S1x512x64 .f32) (harg6 : arg6.IsWhole) (arg7 : Memref sig .tc .vmem S4096x64 .bf16) (harg7 : arg7.IsWhole) (hc0 : ¬cond0_0 i) (x0 : Vec F S1x4096x64 .f32) (x1 : Vec F S64x64 .f32) (x2 : Vec F S1x512x4096 .f32) (x3 : Vec F S1x64 .f32) (xs0 : Vec F S4096x64 .bf16) :
    out0_B_4 c i arg2 harg2 arg3 harg3 arg4 harg4 arg5 harg5 arg6 harg6 arg7 harg7 hc0 x0 x1 x2 x3 xs0 = k0_pay2 x2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz3]
  simp only [View.readAt_eq_ld, harg4.read_unread, harg5.read_unread, harg7.read_unread,
    View.ld_unit_zero (S := S1x512x4096) hz3, View.ld_unit_zero (S := S1x64) hz2, View.ld_unit_zero (S := S4096x64) hz2]

end Cert.KernelIdeal.Pieces

end
-- ==== Proof.KernelPayload.lean ====
/-
  The body's two stores read at an index, over the extended reals.

  The store into the scratch is a plain matrix product of the graph's feature block `[4096, 64]` with the weight
  matrix `[64, 64]`: entry `(j, o)` is `Σ_f x[j, f] · w[f, o]` (the accumulator is the zero block, the changes of
  float format are the identity). The store into the output block is the adjacency tile `[512, 4096]` against the
  scratch `[4096, 64]`, plus the bias row broadcast down the 512 rows: entry `(r, o)` is
  `Σ_j a[r, j] · h[j, o] + bias[o]`. The leading unit axes of the loaded blocks are dropped and added by shape casts.
-/
import proofs.«148132_j14156212208279_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The two matrix products at an output entry -/

theorem featProd_lhs0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem featProd_lhs1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem featProd_rhs0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem featProd_rhs1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The features-by-weights product into a zero accumulator, at entry `(p, o)`: the sum over the 64 input features. -/
theorem featProd_apply (lhs : FVec Ideal S4096x64 .bf16) (rhs : FVec Ideal S64x64 .bf16) (p : Fin 4096) (o : Fin 64) :
    matmul (F := Ideal) dot_S4096x64_S64x64_S4096x64_1_0_0_1_n_n none lhs rhs (constant (F := Ideal) S4096x64 .f32 0x00000000#32) (ix2 p o)
      = ∑ f : Fin 64, lhs (ix2 p f) * rhs (ix2 f o) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p o) ((contrEquiv1 dot_S4096x64_S64x64_S4096x64_1_0_0_1_n_n 64 rfl rfl).symm k) = ix2 p k := funext fun a => Fin.ext (by
    match a with
    | ⟨0, _⟩ => exact featProd_lhs0 _ _
    | ⟨1, _⟩ => exact (featProd_lhs1 _ _).trans hk)
  have er : dot_S4096x64_S64x64_S4096x64_1_0_0_1_n_n.rhsIdx (ix2 p o) ((contrEquiv1 dot_S4096x64_S64x64_S4096x64_1_0_0_1_n_n 64 rfl rfl).symm k) = ix2 k o := funext fun a => Fin.ext (by
    match a with
    | ⟨0, _⟩ => exact (featProd_rhs0 _ _).trans hk
    | ⟨1, _⟩ => exact featProd_rhs1 _ _)
  rw [el, er]

theorem adjProd_lhs0 (i : S512x64.Idx) (q : dot_S512x4096_S4096x64_S512x64_1_0_0_1_n_n.contr.Idx) : (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem adjProd_lhs1 (i : S512x64.Idx) (q : dot_S512x4096_S4096x64_S512x64_1_0_0_1_n_n.contr.Idx) : (dot_S512x4096_S4096x64_S512x64_1_0_0_1_n_n.lhsIdx i q 1).val = (q ⟨0, by decide⟩).val :=
  dot_S512x4096_S4096x64_S512x64_1_0_0_1_n_n.lhsIdx_val_of_single rfl i q
theorem adjProd_rhs0 (i : S512x64.Idx) (q : dot_S512x4096_S4096x64_S512x64_1_0_0_1_n_n.contr.Idx) : (dot_S512x4096_S4096x64_S512x64_1_0_0_1_n_n.rhsIdx i q 0).val = (q ⟨0, by decide⟩).val :=
  dot_S512x4096_S4096x64_S512x64_1_0_0_1_n_n.rhsIdx_val_of_single rfl i q
theorem adjProd_rhs1 (i : S512x64.Idx) (q : dot_S512x4096_S4096x64_S512x64_1_0_0_1_n_n.contr.Idx) : (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The adjacency-tile-by-hidden product into a zero accumulator, at entry `(p, o)`: the sum over the 4096 nodes. -/
theorem adjProd_apply (lhs : FVec Ideal S512x4096 .bf16) (rhs : FVec Ideal S4096x64 .bf16) (p : Fin 512) (o : Fin 64) :
    matmul (F := Ideal) dot_S512x4096_S4096x64_S512x64_1_0_0_1_n_n none lhs rhs (constant (F := Ideal) S512x64 .f32 0x00000000#32) (ix2 p o)
      = ∑ j : Fin 4096, lhs (ix2 p j) * rhs (ix2 j o) := by
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p o) ((contrEquiv1 dot_S512x4096_S4096x64_S512x64_1_0_0_1_n_n 4096 rfl rfl).symm k) = ix2 p k := funext fun a => Fin.ext (by
    match a with
    | ⟨0, _⟩ => exact adjProd_lhs0 _ _
    | ⟨1, _⟩ => exact (adjProd_lhs1 _ _).trans hk)
  have er : dot_S512x4096_S4096x64_S512x64_1_0_0_1_n_n.rhsIdx (ix2 p o) ((contrEquiv1 dot_S512x4096_S4096x64_S512x64_1_0_0_1_n_n 4096 rfl rfl).symm k) = ix2 k o := funext fun a => Fin.ext (by
    match a with
    | ⟨0, _⟩ => exact (adjProd_rhs0 _ _).trans hk
    | ⟨1, _⟩ => exact adjProd_rhs1 _ _)
  rw [el, er]

/-! ## The two stores -/

/-- What case A stores into the scratch, at node `j` and feature `o`: the node's feature row against the weight
    matrix's column `o`. -/
theorem hiddenBlock_apply (x0 : Vec Ideal S1x4096x64 .f32) (x1 : Vec Ideal S64x64 .f32) (j : Fin 4096) (o : Fin 64) :
    k0_pay1 (F := Ideal) x0 x1 (ix2 j o) = ∑ f : Fin 64, x0 (ix3 (0 : Fin 1) j f) * x1 (ix2 f o) := by
  unfold k0_pay1
  refine (congrFun (shapeCast_self _ _) (ix2 j o)).trans ?_
  show matmul (F := Ideal) dot_S4096x64_S64x64_S4096x64_1_0_0_1_n_n none
      (truncf .bf16 (shapeCast S4096x64 x0 shapeCasts_S1x4096x64_S4096x64) bitsLt_bf16_f32) (truncf .bf16 x1 bitsLt_bf16_f32)
      (constant (F := Ideal) S4096x64 .f32 0x00000000#32) (ix2 j o) = _
  refine (featProd_apply _ _ j o).trans (Finset.sum_congr rfl fun f _ => ?_)
  show shapeCast S4096x64 x0 shapeCasts_S1x4096x64_S4096x64 (ix2 j f) * x1 (ix2 f o) = _
  rw [shapeCast_1ab_ab_apply]

/-- What every point stores into its output block, at row `r` of the tile and feature `o`: the adjacency row against
    the scratch's column `o`, plus the bias at `o`. -/
theorem outBlock_apply (x2 : Vec Ideal S1x512x4096 .f32) (h : Vec Ideal S4096x64 .bf16) (x3 : Vec Ideal S1x64 .f32)
    (u : Fin 1) (r : Fin 512) (o : Fin 64) :
    k0_pay2 (F := Ideal) x2 h x3 (ix3 u r o)
      = (∑ j : Fin 4096, x2 (ix3 (0 : Fin 1) r j) * h (ix2 j o)) + x3 (ix2 (0 : Fin 1) o) := by
  unfold k0_pay2
  refine (shapeCast_ab_1ab_apply _ _ u r o).trans ?_
  show matmul (F := Ideal) dot_S512x4096_S4096x64_S512x64_1_0_0_1_n_n none
      (truncf .bf16 (shapeCast S512x4096 x2 shapeCasts_S1x512x4096_S512x4096) bitsLt_bf16_f32) h
      (constant (F := Ideal) S512x64 .f32 0x00000000#32) (ix2 r o)
    + broadcastTo S512x64 (shapeCast S1x64 x3 shapeCasts_S1x64_S1x64) broadcasts_S1x64_S512x64 (ix2 r o) = _
  rw [adjProd_apply, broadcastTo_1b_ab_apply, shapeCast_self]
  refine congrArg (· + x3 (ix2 (0 : Fin 1) o)) (Finset.sum_congr rfl fun j _ => ?_)
  show shapeCast S512x4096 x2 shapeCasts_S1x512x4096_S512x4096 (ix2 r j) * h (ix2 j o) = _
  rw [shapeCast_1ab_ab_apply]

end Cert.KernelIdeal.Payload

end
-- ==== Proof.KernelPoint.lean ====
/-
  One grid point's two stores as entries of the layer, stated over VARIABLES for the loaded blocks.

  If the feature block holds graph `b`'s rows of `text` and the weight block the weight matrix, the scratch store is
  the hidden features of graph `b`. If the adjacency tile holds rows `512·q … 512·q + 511` of graph `b`'s adjacency,
  the scratch the hidden features of graph `b`, and the bias block the bias, then entry `(r, o)` of the output store
  is the layer at `(b, 512·q + r, o)`.
-/
import proofs.«148132_j14156212208279_2_alg».proof.Proof.KernelPayload
import proofs.«148132_j14156212208279_2_alg».proof.Proof.Spec

noncomputable section

namespace Cert.KernelIdeal.Point

open Cert.KernelIdeal Cert.KernelIdeal.Gen Idealize.ShloMosaic Idealize.ShloMosaic.ValueIdx Cert.GraphConv
open scoped BigOperators

/-- Graph `b`'s hidden features as the scratch holds them: node by feature. -/
def hiddenOf (text : FVec Ideal S8x4096x64 .f32) (weight : FVec Ideal S64x64 .f32) (b : Fin 8) : Vec Ideal S4096x64 .bf16 :=
  fun y => hiddenAt text weight b (y 0) (y 1)

theorem hiddenOf_ix2 (text : FVec Ideal S8x4096x64 .f32) (weight : FVec Ideal S64x64 .f32) (b : Fin 8) (j : Fin 4096) (o : Fin 64) :
    hiddenOf text weight b (ix2 j o) = hiddenAt text weight b j o := rfl

/-- The scratch store of a point whose feature block is graph `b`'s: graph `b`'s hidden features. -/
theorem scratch_store (text : FVec Ideal S8x4096x64 .f32) (weight : FVec Ideal S64x64 .f32) (b : Fin 8)
    (x0 : Vec Ideal S1x4096x64 .f32) (x1 : Vec Ideal S64x64 .f32)
    (h0 : ∀ (j : Fin 4096) (f : Fin 64), x0 (ix3 (0 : Fin 1) j f) = text (ix3 b j f))
    (h1 : ∀ (f o : Fin 64), x1 (ix2 f o) = weight (ix2 f o)) :
    k0_pay1 (F := Ideal) x0 x1 = hiddenOf text weight b := by
  funext y
  obtain ⟨j, o, rfl⟩ : ∃ (j : Fin 4096) (o : Fin 64), y = ix2 j o := ⟨y 0, y 1, eq_ix2 y⟩
  refine (Payload.hiddenBlock_apply x0 x1 j o).trans ?_
  rw [hiddenOf_ix2]
  unfold hiddenAt
  refine Finset.sum_congr rfl fun f _ => ?_
  rw [h0 j f, h1 f o]

/-- The output store of a point whose adjacency tile is rows `512·q …` of graph `b`'s adjacency and whose scratch
    holds graph `b`'s hidden features: the layer at those rows. -/
theorem output_store (text : FVec Ideal S8x4096x64 .f32) (adj : FVec Ideal S8x4096x4096 .f32)
    (weight : FVec Ideal S64x64 .f32) (bias : FVec Ideal S64 .f32) (b : Fin 8) (q : Fin 8)
    (x2 : Vec Ideal S1x512x4096 .f32) (x3 : Vec Ideal S1x64 .f32)
    (h2 : ∀ (r : Fin 512) (j : Fin 4096) (i : Fin 4096), i.val = q.val * 512 + r.val → x2 (ix3 (0 : Fin 1) r j) = adj (ix3 b i j))
    (h3 : ∀ o : Fin 64, x3 (ix2 (0 : Fin 1) o) = bias (ix1 o))
    (u : Fin 1) (r : Fin 512) (o : Fin 64) (i : Fin 4096) (hi : i.val = q.val * 512 + r.val) :
    k0_pay2 (F := Ideal) x2 (hiddenOf text weight b) x3 (ix3 u r o) = layerAt text adj weight bias b i o := by
  refine (Payload.outBlock_apply x2 (hiddenOf text weight b) x3 u r o).trans ?_
  unfold layerAt
  rw [h3 o]
  refine congrArg (· + bias (ix1 o)) (Finset.sum_congr rfl fun j _ => ?_)
  rw [h2 r j i hi, hiddenOf_ix2]

/-- The same with the block's entry `y` and the array index `k` it lands on given by their coordinates' values. -/
theorem output_entry (text : FVec Ideal S8x4096x64 .f32) (adj : FVec Ideal S8x4096x4096 .f32)
    (weight : FVec Ideal S64x64 .f32) (bias : FVec Ideal S64 .f32) (b : Fin 8) (q : Fin 8)
    (x2 : Vec Ideal S1x512x4096 .f32) (x3 : Vec Ideal S1x64 .f32)
    (h2 : ∀ (r : Fin 512) (j : Fin 4096) (i : Fin 4096), i.val = q.val * 512 + r.val → x2 (ix3 (0 : Fin 1) r j) = adj (ix3 b i j))
    (h3 : ∀ o : Fin 64, x3 (ix2 (0 : Fin 1) o) = bias (ix1 o))
    (y : S1x512x64.Idx) (k : S8x4096x64.Idx)
    (hk0 : (k 0).val = b.val) (hk1 : (k 1).val = q.val * 512 + (y 1).val) (hk2 : (k 2).val = (y 2).val) :
    k0_pay2 (F := Ideal) x2 (hiddenOf text weight b) x3 y = layer text adj weight bias k := by
  obtain ⟨u, r, o, rfl⟩ : ∃ (u : Fin 1) (r : Fin 512) (o : Fin 64), y = ix3 u r o := ⟨y 0, y 1, y 2, eq_ix3 y⟩
  obtain ⟨kb, ki, ko, rfl⟩ : ∃ (kb : Fin 8) (ki : Fin 4096) (ko : Fin 64), k = ix3 kb ki ko := ⟨k 0, k 1, k 2, eq_ix3 k⟩
  obtain rfl : kb = b := Fin.ext hk0
  obtain rfl : ko = o := Fin.ext hk2
  rw [layer_ix3]
  exact output_store text adj weight bias kb q x2 x3 h2 h3 u r ko ki hk1

end Cert.KernelIdeal.Point

end
-- ==== Proof.KernelBlocks.lean ====
/-
  The windows' blocks as rows of the argument arrays.

  The grid is 8 graphs by 8 row tiles, in row-major order: point `t` works on row tile `t % 8` of graph `t / 8`.
  Its feature block is graph `t / 8`'s whole `[4096, 64]` slab of `text`, its adjacency tile rows
  `512·(t % 8) … 512·(t % 8) + 511` of that graph's adjacency matrix, its weight block the whole weight matrix, its
  bias block the bias as a single row (the host reshapes `[64]` to `[1, 64]` before the launch), and its output
  block rows `512·(t % 8) …` of graph `t / 8`'s slab of the result.
-/
import proofs.«148132_j14156212208279_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The printed index maps over the 64 grid points: graph `t / 8`, row tile `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0 :=
  (by decide +kernel : ∀ t : Fin grid0.N, _)

/-- The feature block at point `t` is graph `t / 8`'s slab of `text`. -/
theorem textBlock_apply (c : Dev nD) (t : Fin cfg0.N) (x : S1x4096x64.Idx) (k : S8x4096x64.Idx)
    (h0 : (k 0).val = t.val / 8) (h1 : (k 1).val = (x 1).val) (h2 : (k 2).val = (x 2).val) :
    (iblk m c 0 t : Vec F S1x4096x64 .f32) x = (m ((c : Thread nD τ).loc main_arg0) : S8x4096x64.Idx → Elt F .f32) k := by
  obtain ⟨e0, e1, e2, -⟩ := idx_facts t
  have hx0 : (x 0).val < 1 := (x 0).isLt
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * (x 0).val = (k 0).val; rw [e0, h0]; omega
  | ⟨1, _⟩ => show win0_0.index t 1 * 4096 + 1 * (x 1).val = (k 1).val; rw [e1, h1]; omega
  | ⟨2, _⟩ => show win0_0.index t 2 * 64 + 1 * (x 2).val = (k 2).val; rw [e2, h2]; omega

/-- The weight block at every point is the weight matrix. -/
theorem weightBlock_apply (c : Dev nD) (t : Fin cfg0.N) (x : S64x64.Idx) :
    (iblk m c 1 t : Vec F S64x64 .f32) x = (m ((c : Thread nD τ).loc main_arg2) : S64x64.Idx → Elt F .f32) x := by
  obtain ⟨-, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- The adjacency tile at point `t` is rows `512·(t % 8) …` of graph `t / 8`'s adjacency matrix. -/
theorem adjBlock_apply (c : Dev nD) (t : Fin cfg0.N) (x : S1x512x4096.Idx) (k : S8x4096x4096.Idx)
    (h0 : (k 0).val = t.val / 8) (h1 : (k 1).val = t.val % 8 * 512 + (x 1).val) (h2 : (k 2).val = (x 2).val) :
    (iblk m c 2 t : Vec F S1x512x4096 .f32) x = (m ((c : Thread nD τ).loc main_arg1) : S8x4096x4096.Idx → Elt F .f32) k := by
  obtain ⟨-, -, -, -, -, e0, e1, e2, -⟩ := idx_facts t
  have hx0 : (x 0).val < 1 := (x 0).isLt
  unfold iblk
  rw [View.read_apply]
  show V m c main_arg1 _ = m (c.tc.loc main_arg1) _
  rw [V_main_arg1]
  congr 1
  funext a
  apply Fin.ext
  match a with
  | ⟨0, _⟩ => show win0_2.index t 0 * 1 + 1 * (x 0).val = (k 0).val; rw [e0, h0]; omega
  | ⟨1, _⟩ => show win0_2.index t 1 * 512 + 1 * (x 1).val = (k 1).val; rw [e1, h1]; omega
  | ⟨2, _⟩ => show win0_2.index t 2 * 4096 + 1 * (x 2).val = (k 2).val; rw [e2, h2]; omega

/-- The bias row the region finds: the host's reshape of the bias. -/
theorem biasRow_eq (c : Dev nD) :
    (V m c main_v0 : S1x64.Idx → Elt F .f32) = shapeCast S1x64 (m ((c : Thread nD τ).loc main_arg3) : S64.Idx → Elt F .f32) shapeCasts_S64_S1x64 := by
  dsimp only [V, hostOps0]
  after_results
  rfl

/-- The bias block at every point, at feature `o`, is the bias at `o`. -/
theorem biasBlock_apply (c : Dev nD) (t : Fin cfg0.N) (u : Fin 1) (o : Fin 64) :
    (iblk m c 3 t : Vec F S1x64 .f32) (ix2 u o) = (m ((c : Thread nD τ).loc main_arg3) : S64.Idx → Elt F .f32) (ix1 o) := by
  obtain ⟨-, -, -, -, -, -, -, -, e0, e1, -⟩ := idx_facts t
  have hu : u.val < 1 := u.isLt
  unfold iblk
  rw [View.read_apply]
  show (V m c main_v0 : S1x64.Idx → Elt F .f32) _ = _
  rw [biasRow_eq, ← shapeCast_a_1a_apply (m ((c : Thread nD τ).loc main_arg3) : S64.Idx → Elt F .f32) shapeCasts_S64_S1x64 u o]
  congr 1
  funext a
  apply Fin.ext
  match a with
  | ⟨0, _⟩ => show win0_3.index t 0 * 1 + 1 * u.val = u.val; rw [e0]; omega
  | ⟨1, _⟩ => show win0_3.index t 1 * 64 + 1 * o.val = o.val; rw [e1]; omega

/-- Where the output block's entry `y` lands in the result array: graph `t / 8`, row `512·(t % 8) + y₁`. -/
theorem outBlock_emb (t : Fin cfg0.N) (y : S1x512x64.Idx) :
    ((((cfg0.win 4).blk t).view.emb y : S8x4096x64.Idx) 0).val = t.val / 8
    ∧ ((((cfg0.win 4).blk t).view.emb y : S8x4096x64.Idx) 1).val = t.val % 8 * 512 + (y 1).val
    ∧ ((((cfg0.win 4).blk t).view.emb y : S8x4096x64.Idx) 2).val = (y 2).val := by
  obtain ⟨-, -, -, -, -, -, -, -, -, -, e0, e1, e2⟩ := idx_facts t
  have hy0 : (y 0).val < 1 := (y 0).isLt
  refine ⟨?_, ?_, ?_⟩
  · show win0_4.index t 0 * 1 + 1 * (y 0).val = _; rw [e0]; omega
  · show win0_4.index t 1 * 512 + 1 * (y 1).val = _; rw [e1]; omega
  · show win0_4.index t 2 * 64 + 1 * (y 2).val = _; rw [e2]; omega

end Cert.KernelIdeal.Blocks

end
-- ==== Proof.KernelLayer.lean ====
/-
  What the carried scratch and the output block hold after every grid point, and the result array.

  The scratch is recomputed at the first row tile of each graph and left alone at the other seven, so after point
  `n` it holds the hidden features of graph `n / 8`: by induction on the point, the step at a point that does not
  recompute using that `(n − 1) / 8 = n / 8` there. Every point's output block is then the layer's rows
  `512·(n % 8) …` of graph `n / 8`; the 64 blocks tile the result array, so it ends holding the layer.
-/
import proofs.«148132_j14156212208279_2_alg».proof.Proof.Gen.KernelIdeal.Value
import proofs.«148132_j14156212208279_2_alg».proof.Proof.KernelPieces
import proofs.«148132_j14156212208279_2_alg».proof.Proof.KernelPoint
import proofs.«148132_j14156212208279_2_alg».proof.Proof.KernelBlocks

noncomputable section

namespace Cert.KernelIdeal.Layer

open Cert.KernelIdeal Cert.KernelIdeal.Gen Idealize.ShloMosaic Idealize.ShloMosaic.TcCoe Idealize.SL.Sem
open Idealize.ShloMosaic.ValueIdx Cert.GraphConv Cert.KernelIdeal.Point
open Idealize.ShloMosaic.Pipeline (Dat)

variable (m : (ℓ : Loc nD τ sig) → Buf (Elt Ideal) ℓ) (ρ : Dev nD → PrngReg)

/-- The four argument arrays on core `c`. -/
abbrev text (c : Dev nD) : FVec Ideal S8x4096x64 .f32 := m ((c : Thread nD τ).loc main_arg0)
abbrev adj (c : Dev nD) : FVec Ideal S8x4096x4096 .f32 := m ((c : Thread nD τ).loc main_arg1)
abbrev weight (c : Dev nD) : FVec Ideal S64x64 .f32 := m ((c : Thread nD τ).loc main_arg2)
abbrev bias (c : Dev nD) : FVec Ideal S64 .f32 := m ((c : Thread nD τ).loc main_arg3)

/-- The graph point `n` works on, and its row tile. -/
def graphOf (n : ℕ) (hn : n < cfg0.N) : Fin 8 := ⟨n / 8, by have hN : cfg0.N = 64 := N_0; omega⟩
def tileOf (n : ℕ) : Fin 8 := ⟨n % 8, Nat.mod_lt _ (by decide)⟩

/-- A point's feature and weight blocks give its graph's hidden features. -/
theorem hidden_of_blocks (c : Dev nD) (t : Fin cfg0.N) :
    k0_pay1 (F := Ideal) (iblk m c 0 t) (iblk m c 1 t) = hiddenOf (text m c) (weight m c) (graphOf t.val t.isLt) :=
  scratch_store (text m c) (weight m c) (graphOf t.val t.isLt) (iblk m c 0 t) (iblk m c 1 t)
    (fun j f => Blocks.textBlock_apply m c t (ix3 (0 : Fin 1) j f) (ix3 (graphOf t.val t.isLt) j f) rfl rfl rfl)
    (fun f o => Blocks.weightBlock_apply m c t (ix2 f o))

/-- At the first row tile of a graph the scratch is recomputed: that graph's hidden features. -/
theorem scratch_at_first (c : Dev nD) (t : Fin cfg0.N) (h0 : t.val % 8 = 0) :
    (outsAt0 m c t.val t.isLt).2 = hiddenOf (text m c) (weight m c) (graphOf t.val t.isLt) := by
  rw [outsAt0_A m c t h0]
  dsimp only
  exact (Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
    (iblk m c 0 t) (iblk m c 1 t) (iblk m c 2 t) (iblk m c 3 t)).trans (hidden_of_blocks m c t)

/-- At any other row tile the scratch is what the point before left. -/
theorem scratch_at_later (c : Dev nD) (t : Fin cfg0.N) (h0 : ¬t.val % 8 = 0) :
    (outsAt0 m c t.val t.isLt).2 = (outsAt0 m c (t.val - 1) (Nat.lt_of_le_of_lt (Nat.sub_le _ _) t.isLt)).2 :=
  (congrArg Prod.snd (outsAt0_B m c t h0)).trans rfl

/-- AFTER POINT `n` THE SCRATCH HOLDS GRAPH `n / 8`'S HIDDEN FEATURES. -/
theorem scratch_after (c : Dev nD) : ∀ (n : ℕ) (hn : n < cfg0.N),
    (outsAt0 m c n hn).2 = hiddenOf (text m c) (weight m c) (graphOf n hn)
  | 0, hn => scratch_at_first m c ⟨0, hn⟩ rfl
  | n + 1, hn => by
    by_cases h0 : (n + 1) % 8 = 0
    · exact scratch_at_first m c ⟨n + 1, hn⟩ h0
    · refine (scratch_at_later m c ⟨n + 1, hn⟩ h0).trans ?_
      show (outsAt0 m c n _).2 = _
      have hb : graphOf n (Nat.lt_of_succ_lt hn) = graphOf (n + 1) hn := Fin.ext (by show n / 8 = (n + 1) / 8; omega)
      rw [scratch_after c n (Nat.lt_of_succ_lt hn), hb]

/-- After point `t` the output block is the adjacency tile against the graph's hidden features, plus the bias. -/
theorem output_after (c : Dev nD) (t : Fin cfg0.N) :
    (outsAt0 m c t.val t.isLt).1
      = k0_pay2 (F := Ideal) (iblk m c 2 t) (hiddenOf (text m c) (weight m c) (graphOf t.val t.isLt)) (iblk m c 3 t) := by
  by_cases h0 : t.val % 8 = 0
  · rw [outsAt0_A m c t h0]
    dsimp only
    refine (Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (iblk m c 0 t) (iblk m c 1 t) (iblk m c 2 t) (iblk m c 3 t)).trans ?_
    exact congrArg (fun h => k0_pay2 (F := Ideal) (iblk m c 2 t) h (iblk m c 3 t)) (hidden_of_blocks m c t)
  · have hN : cfg0.N = 64 := N_0
    have hlt := t.isLt
    rw [outsAt0_B m c t h0]
    dsimp only
    refine (Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2).trans ?_
    have hb : graphOf (t.val - 1) (Nat.lt_of_le_of_lt (Nat.sub_le _ _) t.isLt) = graphOf t.val t.isLt :=
      Fin.ext (by show (t.val - 1) / 8 = t.val / 8; omega)
    rw [scratch_after m c (t.val - 1) (Nat.lt_of_le_of_lt (Nat.sub_le _ _) t.isLt), hb]

/-- WHAT POINT `t` WRITES BACK is block `t` of the layer of the argument arrays. -/
theorem flushed_eq (c : Dev nD) (t : Fin cfg0.N) :
    (dats m 0 c).flushed 4 t
      = ((cfg0.win 4).blk t).view.read (Elt Ideal) (layer (text m c) (adj m c) (weight m c) (bias m c)) := by
  rw [Value.flushed4, output_after m c t]
  funext y
  obtain ⟨e0, e1, e2⟩ := Blocks.outBlock_emb t y
  exact output_entry (text m c) (adj m c) (weight m c) (bias m c) (graphOf t.val t.isLt) (tileOf t.val)
    (iblk m c 2 t) (iblk m c 3 t)
    (fun r j i hi => Blocks.adjBlock_apply m c t (ix3 (0 : Fin 1) r j) (ix3 (graphOf t.val t.isLt) i j) rfl hi rfl)
    (fun o => Blocks.biasBlock_apply m c t (0 : Fin 1) o)
    y (((cfg0.win 4).blk t).view.emb y) e0 e1 e2

/-- An index of the result array is in point `t`'s block iff each coordinate is in the block's range on its axis. -/
theorem mem_blk (t : Fin cfg0.N) (i : S8x4096x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1).slice (win0_4.rect t)).set ↔ _
  rw [View.set_slice_whole, Rect.mem_set_unit]
  exact Iff.rfl

/-- Every index of the result array is in some point's block: row `i₁` of graph `i₀` is in point `8·i₀ + i₁ / 512`'s. -/
theorem covered (i : S8x4096x64.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 64 := (i 2).isLt
  have hN : cfg0.N = 64 := N_0
  have ht : (i 0).val * 8 + (i 1).val / 512 < cfg0.N := by omega
  refine ⟨⟨(i 0).val * 8 + (i 1).val / 512, ht⟩, flush0_4 _, ?_⟩
  rw [mem_blk]
  obtain ⟨-, -, -, -, -, -, -, -, -, -, e0, e1, e2⟩ := Blocks.idx_facts ⟨(i 0).val * 8 + (i 1).val / 512, ht⟩
  intro a
  match a with
  | ⟨0, _⟩ =>
    show win0_4.index _ (0 : Fin 3) * 1 ≤ (i 0).val ∧ (i 0).val < win0_4.index _ (0 : Fin 3) * 1 + 1
    rw [e0]; show ((i 0).val * 8 + (i 1).val / 512) / 8 * 1 ≤ (i 0).val ∧ (i 0).val < ((i 0).val * 8 + (i 1).val / 512) / 8 * 1 + 1
    omega
  | ⟨1, _⟩ =>
    show win0_4.index _ (1 : Fin 3) * 512 ≤ (i 1).val ∧ (i 1).val < win0_4.index _ (1 : Fin 3) * 512 + 512
    rw [e1]; show ((i 0).val * 8 + (i 1).val / 512) % 8 * 512 ≤ (i 1).val ∧ (i 1).val < ((i 0).val * 8 + (i 1).val / 512) % 8 * 512 + 512
    omega
  | ⟨2, _⟩ =>
    show win0_4.index _ (2 : Fin 3) * 64 ≤ (i 2).val ∧ (i 2).val < win0_4.index _ (2 : Fin 3) * 64 + 64
    rw [e2]; omega

/-- THE RESULT ARRAY after the run is the layer of the argument arrays. -/
theorem final (c : Dev nD) :
    (dats m 0 c).arrAt 4 cfg0.N = layer (text m c) (adj m c) (weight m c) (bias m c) :=
  (dats m 0 c).arrAt_eq_of_cover 4 (layer (text m c) (adj m c) (weight m c) (bias m c))
    (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer (text m c) (adj m c) (weight m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.lean ====
/-
  A graph-convolution layer — `out = adj @ (text @ weight) + bias` over 8 graphs of 4096 nodes and 64 features — as one
  fused kernel against the two einsums of its reference.

  The kernel walks a grid of 8 graphs by 8 row tiles. At the first row tile of each graph it computes the graph's
  hidden features `text[b] @ weight` into a scratch that stays resident for the graph's other seven row tiles; at
  every row tile it multiplies the 512 adjacency rows of the tile by that scratch and adds the bias row. Over the
  extended reals the changes of float format are the identity and a matrix product into a zero accumulator is the
  plain sum, so each entry the kernel writes is
      Σ_j adj[b, i, j] · (Σ_f text[b, j, f] · weight[f, o]) + bias[o],
  which is, term for term, what the reference's two contractions and its broadcast add compute (`GraphConv.layer`).

  The pieces: `Spec` states the layer; `RefIsSpec` reads the reference's run as the layer; `KernelPieces` and
  `KernelPayload` read what one run of the body stores, `KernelBlocks` what its blocks are of the argument arrays,
  `KernelPoint` puts the two together for one grid point, and `KernelLayer` carries the scratch through the grid by
  induction and tiles the result array with the 64 output blocks. The three frames are the generated ones (the
  reference's is its generated run with the result dropped); the idealization rewrote nothing.
-/
import proofs.«148132_j14156212208279_2_alg».proof.Defs
import proofs.«148132_j14156212208279_2_alg».proof.Proof.Gen.Kernel
import proofs.«148132_j14156212208279_2_alg».proof.Proof.Gen.Kernel.Skeleton
import proofs.«148132_j14156212208279_2_alg».proof.Proof.Gen.Kernel.Launch
import proofs.«148132_j14156212208279_2_alg».proof.Proof.Gen.Kernel.Points
import proofs.«148132_j14156212208279_2_alg».proof.Proof.Gen.Kernel.Frame
import proofs.«148132_j14156212208279_2_alg».proof.Proof.Gen.KernelIdeal
import proofs.«148132_j14156212208279_2_alg».proof.Proof.Gen.KernelIdeal.Skeleton
import proofs.«148132_j14156212208279_2_alg».proof.Proof.Gen.KernelIdeal.Launch
import proofs.«148132_j14156212208279_2_alg».proof.Proof.Gen.KernelIdeal.Points
import proofs.«148132_j14156212208279_2_alg».proof.Proof.Gen.KernelIdeal.Frame
import proofs.«148132_j14156212208279_2_alg».proof.Proof.Gen.ReferenceIdeal
import proofs.«148132_j14156212208279_2_alg».proof.Proof.Gen.Pre_finite_inputs
import proofs.«148132_j14156212208279_2_alg».proof.Proof.Gen.KernelIdeal.Value
import proofs.«148132_j14156212208279_2_alg».proof.Proof.Gen.ReferenceIdeal.Run
import proofs.«148132_j14156212208279_2_alg».proof.Proof.Gen.ReferenceIdeal.Read
import proofs.«148132_j14156212208279_2_alg».proof.Proof.RefIsSpec
import proofs.«148132_j14156212208279_2_alg».proof.Proof.KernelLayer
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments both programs end with the layer of those arguments as their
    result: the kernel by carrying each graph's hidden features through its row tiles, the reference by its two
    contractions and the broadcast add. -/
theorem algebraic : Cert.algebraic_KernelIdeal_ReferenceIdeal := by
  intro m ρ m' ρ' _ hagree
  refine ⟨fun c => Cert.GraphConv.layer (Cert.KernelIdeal.Layer.text m c) (Cert.KernelIdeal.Layer.adj m c)
    (Cert.KernelIdeal.Layer.weight m c) (Cert.KernelIdeal.Layer.bias m c), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
